-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x128 : Shape := ⟨2, ![64, 128]⟩
abbrev S128x64 : Shape := ⟨2, ![128, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x128 : S_.BroadcastsInDim S64x128 (![] : Fin 0 → Fin S64x128.rank)
  reducesTo_S64x128_S_d0_1 : S64x128.ReducesTo [0, 1] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  main_v18

def fn {F : FTy → Type} [FloatOps F] (main_arg0 : FVec F S100000x64 .f32) (main_arg1 : IVec S1600000 32) (main_arg2 : IVec S1600000 32) (main_arg3 : FVec F S1600000 .f32) (main_arg4 : FVec F S64x128 .f32) (main_arg5 : FVec F S128x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_v13 main_v16
-- ==== Kernel.lean ====
abbrev S100000x64 : Shape := ⟨2, ![100000, 64]⟩
abbrev S1600000 : Shape := ⟨1, ![1600000]⟩
abbrev S64x128 : Shape := ⟨2, ![64, 128]⟩
abbrev S128x64 : Shape := ⟨2, ![128, 64]⟩
abbrev S1600000x1 : Shape := ⟨2, ![1600000, 1]⟩
abbrev S_ : Shape := ⟨0, ![]⟩
abbrev S1600000x64 : Shape := ⟨2, ![1600000, 64]⟩
abbrev S10000x64 : Shape := ⟨2, ![10000, 64]⟩
abbrev S10000x128 : Shape := ⟨2, ![10000, 128]⟩

abbrev nBuf : Space → Nat
  | .hbm => 39
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S64x128, .f32⟩
  | .hbm, ⟨5, _⟩ => ⟨S128x64, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S1600000x64, .f32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S100000x64, .f32⟩
  | .hbm, ⟨23, _⟩ => ⟨S1600000x1, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S1600000x64, .f32⟩
  | .hbm, ⟨34, _⟩ => ⟨S1600000x64, .f32⟩
  | .hbm, ⟨35, _⟩ => ⟨S_, .f32⟩
  | .hbm, ⟨36, _⟩ => ⟨S100000x64, .f32⟩
  | .hbm, ⟨37, _⟩ => ⟨S1600000x1, .i32⟩
  | .hbm, ⟨38, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S128x64, .f32⟩
  | .local _ .vmem, ⟨4, _⟩ => ⟨S10000x64, .f32⟩
  | .local _ .vmem, ⟨5, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x128_S64x128_0_0 : ∀ a, (![0, 0] : Fin 2 → Nat) a + S64x128.size a ≤ S64x128.size a
  h_S64x128 : 0 < S64x128.numel
  inb_S128x64_S128x64_0_0 : ∀ a, (![0, 0] : Fin 2 → Nat) a + S128x64.size a ≤ S128x64.size a
  h_S128x64 : 0 < S128x64.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x128_S10000x128_1_0_0_1_n_n_wf : DotDims.WF S10000x64 S64x128 S10000x128 [1] [0] [0] [1] [] []
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v12) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x128 : Shape := ⟨2, ![64, 128]⟩
abbrev S128x64 : Shape := ⟨2, ![128, 64]⟩
abbrev S1600000x1 : Shape := ⟨2, ![1600000, 1]⟩
abbrev S_ : Shape := ⟨0, ![]⟩
abbrev S1600000x64 : Shape := ⟨2, ![1600000, 64]⟩
abbrev S100000x128 : Shape := ⟨2, ![100000, 128]⟩
abbrev S1600000x128 : Shape := ⟨2, ![1600000, 128]⟩

abbrev nBuf : Space → Nat
  | .hbm => 43
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S64x128, .f32⟩
  | .hbm, ⟨5, _⟩ => ⟨S128x64, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S1600000x64, .f32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .f32⟩
  | .hbm, ⟨26, _⟩ => ⟨S1600000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S1600000x128, .f32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S_S100000x128 : S_.BroadcastsInDim S100000x128 (![] : Fin 0 → Fin S100000x128.rank)
  bcast_S1600000x1_S1600000x128_0_1 : S1600000x1.BroadcastsInDim S1600000x128 (![0, 1] : Fin 2 → Fin S1600000x128.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibFinite.lean ====
/-
  Finite extended reals. `IsReal x` says the extended real `x` is a real number (neither
  infinity). The exact float operations of the ideal values — sum, difference, product,
  maximum, minimum, negation, quotient by a nonzero finite divisor, reciprocal square root
  of a positive finite value — keep finite operands finite; a finite sum of finite terms
  is finite, and the coercion `ℝ → EReal` commutes with finite sums.

  Everything here is stated once on `EReal` and once over the `FloatOps` fields at
  `Ideal` (`FloatOps.addf` …), and entrywise over vectors (`AllReal v`).
-/
import Idealize.ShloMosaic.PureOps.Ideal.Laws

open scoped BigOperators
open Idealize.ShloMosaic

namespace LibFinite

/-- The extended real `x` is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.ne_top {x : EReal} (h : IsReal x) : x ≠ ⊤ := by
  obtain ⟨r, rfl⟩ := h; exact EReal.coe_ne_top r
theorem IsReal.ne_bot {x : EReal} (h : IsReal x) : x ≠ ⊥ := by
  obtain ⟨r, rfl⟩ := h; exact EReal.coe_ne_bot r

/-- Finite means: neither infinity. -/
theorem isReal_iff {x : EReal} : IsReal x ↔ x ≠ ⊥ ∧ x ≠ ⊤ := by
  constructor
  · exact fun h => ⟨h.ne_bot, h.ne_top⟩
  · rintro ⟨hb, ht⟩
    induction x using EReal.rec with
    | bot => exact absurd rfl hb
    | top => exact absurd rfl ht
    | coe r => exact ⟨r, rfl⟩

/-- The real number a finite extended real is. -/
theorem IsReal.coe_toReal {x : EReal} (h : IsReal x) : ((x.toReal : ℝ) : EReal) = x := by
  obtain ⟨r, rfl⟩ := h; rfl

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

/-- The quotient of the ideal values by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a / b, div_coe_coe a hb⟩

/-- The reciprocal square root of a positive real is the real one. -/
theorem rsqrt_coe_pos {a : ℝ} (ha : 0 < a) : Ideal.rsqrt (a : EReal) = (((Real.sqrt a)⁻¹ : ℝ) : EReal) := by
  rw [Ideal.rsqrt_coe, if_neg (not_lt.mpr ha.le), if_neg ha.ne']

theorem IsReal.rsqrt {x : EReal} (hx : IsReal x) (hpos : 0 < x) : IsReal (Ideal.rsqrt x) := by
  obtain ⟨a, rfl⟩ := hx
  exact ⟨_, rsqrt_coe_pos (EReal.coe_pos.mp hpos)⟩

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of finite terms is finite. -/
theorem isReal_sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- A finite sum of finite nonnegative terms is nonnegative (and finite). -/
theorem sum_nonneg_of_isReal {ι : Type*} (s : Finset ι) (f : ι → EReal) (h0 : ∀ i ∈ s, 0 ≤ f i) :
    0 ≤ ∑ i ∈ s, f i := Finset.sum_nonneg h0

/-! ### The same over the float operations of the ideal values -/

variable {φ : FTy}

theorem isReal_addf {x y : Ideal φ} (hx : IsReal x) (hy : IsReal y) : IsReal (FloatOps.addf x y) := hx.add hy
theorem isReal_subf {x y : Ideal φ} (hx : IsReal x) (hy : IsReal y) : IsReal (FloatOps.subf x y) := hx.sub hy
theorem isReal_mulf {x y : Ideal φ} (hx : IsReal x) (hy : IsReal y) : IsReal (FloatOps.mulf x y) := hx.mul hy
theorem isReal_negf {x : Ideal φ} (hx : IsReal x) : IsReal (FloatOps.negf x) := hx.neg
theorem isReal_maximumf {x y : Ideal φ} (hx : IsReal x) (hy : IsReal y) : IsReal (FloatOps.maximumf x y) := hx.max hy
theorem isReal_minimumf {x y : Ideal φ} (hx : IsReal x) (hy : IsReal y) : IsReal (FloatOps.minimumf x y) := hx.min hy
theorem isReal_divf {x y : Ideal φ} (hx : IsReal x) (hy : IsReal y) (h0 : y ≠ 0) : IsReal (FloatOps.divf x y) :=
  hx.div hy h0
theorem isReal_hostDivf {x y : Ideal φ} (hx : IsReal x) (hy : IsReal y) (h0 : y ≠ 0) :
    IsReal (FloatOps.hostDivf x y) := hx.div hy h0
theorem isReal_rsqrt {x : Ideal φ} (hx : IsReal x) (hpos : 0 < x) : IsReal (FloatOps.rsqrt x) := hx.rsqrt hpos
theorem isReal_hostRsqrt {x : Ideal φ} (hx : IsReal x) (hpos : 0 < x) : IsReal (FloatOps.hostUnary .rsqrt x) :=
  hx.rsqrt hpos

/-! ### Entrywise over vectors -/

/-- Every entry of the vector is a real number. -/
def AllReal {s : Shape} (v : s.Idx → EReal) : Prop := ∀ i, IsReal (v i)

variable {s : Shape}

theorem allReal_addf {x y : FVec Ideal s φ} (hx : AllReal x) (hy : AllReal y) : AllReal (addf x y) :=
  fun i => (hx i).add (hy i)
theorem allReal_subf {x y : FVec Ideal s φ} (hx : AllReal x) (hy : AllReal y) : AllReal (subf x y) :=
  fun i => (hx i).sub (hy i)
theorem allReal_mulf {x y : FVec Ideal s φ} (hx : AllReal x) (hy : AllReal y) : AllReal (mulf x y) :=
  fun i => (hx i).mul (hy i)
theorem allReal_maximumf {x y : FVec Ideal s φ} (hx : AllReal x) (hy : AllReal y) : AllReal (maximumf x y) :=
  fun i => (hx i).max (hy i)
theorem allReal_divf {x y : FVec Ideal s φ} (hx : AllReal x) (hy : AllReal y) (h0 : ∀ i, y i ≠ 0) :
    AllReal (divf x y) := fun i => (hx i).div (hy i) (h0 i)
theorem allReal_hostDivf {x y : FVec Ideal s φ} (hx : AllReal x) (hy : AllReal y) (h0 : ∀ i, y i ≠ 0) :
    AllReal (Host.divf x y) := fun i => (hx i).div (hy i) (h0 i)
theorem allReal_rsqrt {x : FVec Ideal s φ} (hx : AllReal x) (hpos : ∀ i, 0 < x i) : AllReal (rsqrt x) :=
  fun i => (hx i).rsqrt (hpos i)
theorem allReal_hostRsqrt {x : FVec Ideal s φ} (hx : AllReal x) (hpos : ∀ i, 0 < x i) : AllReal (Host.rsqrt x) :=
  fun i => (hx i).rsqrt (hpos i)
theorem allReal_broadcast {x : EReal} (hx : IsReal x) (t : Shape) : AllReal (broadcast t x) := fun _ => hx

end LibFinite
-- ==== Proof.Finite.lean ====
/-
  From the finiteness test of the inputs to "every float argument is a real number".

  The precondition is the conjunction of four tests `all (|x| < +∞)`, one per float argument: the absolute value
  of every entry is compared with the pattern of `+∞`, and the comparison words are folded by `and` from `1` into
  a single word. That word is `1` only if every comparison word is `1`. On the extended reals `|x| = max x (-x)`, and
  `max x (-x) < ⊤` says `x < ⊤` and `-x < ⊤`, that is `x ≠ ⊤` and `x ≠ ⊥`: `x` is a real number.
-/
import proofs.«170506_j19688130085401_2_alg».proof.Pre_finite_inputs
import proofs.«170506_j19688130085401_2_alg».proof.Proof.Gen.Pre_finite_inputs
import proofs.«170506_j19688130085401_2_alg».proof.Proof.LibFinite
import Idealize.ShloMosaic.Lib.ReduceAll
import Idealize.ShloMosaic.Lib.ValueIdx
import Idealize.ShloMosaic.PureOps.Ideal.Laws

noncomputable section

namespace Cert.Finite

open Idealize.ShloMosaic LibFinite Cert.Pre_finite_inputs

/-- The rank-0 shape has one index. -/
instance subsingleton_scalar_idx : Subsingleton S_.Idx := ⟨fun a b => funext fun d => d.elim0⟩

/-- The f32 pattern `0x7F800000` denotes `+∞`. -/
theorem ofBits_posInf_f32 : Ideal.ofBits .f32 0x7F800000#32 = ⊤ := by simp [Ideal.ofBits, Ideal.ieee]

/-- An extended real whose absolute value is below `+∞` is a real number. -/
theorem isReal_of_abs_lt_top {x : EReal} (h : max x (-x) < ⊤) : IsReal x := by
  rw [isReal_iff]
  obtain ⟨h1, h2⟩ := max_lt_iff.1 h
  refine ⟨fun hb => ?_, fun ht => ?_⟩
  · rw [hb, EReal.neg_bot] at h2; exact lt_irrefl _ h2
  · rw [ht] at h1; exact lt_irrefl _ h1

/-- One test, over an arbitrary shape: if the fold by `and` of the words `|v i| < +∞` is `1`, every entry of `v`
    is a real number. -/
theorem allReal_of_test {s : Shape} {axes : List (Fin s.rank)}
    (hb : S_.BroadcastsInDim s (![] : Fin 0 → Fin s.rank)) (hr : s.ReducesTo axes S_) (hu : 0 < S_.numel)
    (v : FVec Ideal s .f32) (init : IVec S_ 1)
    (e : Host.reduce IntOp.andi
        (cmpf .olt (Host.absf v) (broadcastInDim s ![] hb (constant (F := Ideal) S_ .f32 0x7F800000#32)))
        init hr hu ValueIdx.ix0 = 1#1) :
    AllReal v := by
  intro i
  have hi := Host.reduce_andi_all _ init hr hu ValueIdx.ix0 e i
  have hi' : BitVec.ofBool (decide (max (v i) (-(v i)) < Ideal.ofBits .f32 0x7F800000#32)) = 1#1 := hi
  rw [ofBits_posInf_f32] at hi'
  apply isReal_of_abs_lt_top
  by_contra hn
  rw [decide_eq_false hn] at hi'
  exact absurd hi' (by decide)

/-- THE PRECONDITION DECODED: when the finiteness test of the inputs answers `1`, the node features, the entry
    values and both weight matrices have only real entries. -/
theorem allReal_of_pre [Cert.Pre_finite_inputs.Facts]
    (x0 : FVec Ideal S100000x64 .f32) (x1 x2 : IVec S1600000 32) (x3 : FVec Ideal S1600000 .f32)
    (x4 : FVec Ideal S64x128 .f32) (x5 : FVec Ideal S128x64 .f32)
    (h : Cert.Pre_finite_inputs.fn (F := Ideal) x0 x1 x2 x3 x4 x5 = fun _ => 1#1) :
    AllReal x0 ∧ AllReal x3 ∧ AllReal x4 ∧ AllReal x5 := by
  have e := congrFun h ValueIdx.ix0
  dsimp only [Cert.Pre_finite_inputs.fn, Cert.Pre_finite_inputs.fn_part1, andi] at e
  obtain ⟨⟨⟨e0, e3⟩, e4⟩, e5⟩ :=
    (IntOp.andi_eq_one.1 e).imp_left fun e' => (IntOp.andi_eq_one.1 e').imp_left fun e'' => IntOp.andi_eq_one.1 e''
  exact ⟨allReal_of_test _ _ _ x0 _ e0, allReal_of_test _ _ _ x3 _ e3,
    allReal_of_test _ _ _ x4 _ e4, allReal_of_test _ _ _ x5 _ e5⟩

end Cert.Finite

end
-- ==== Proof.LibRowIndex.lean ====
/-
  A row gather and a row scatter-add, read at an index.

  A matrix `x : [N, C]` gathered at a column of row numbers `idx : [E, 1]` gives the matrix whose row `e` is the
  row of `x` numbered `idx[e, 0]` (read signed and clamped into `[0, N - 1]`).  Scatter-adding the rows of
  `upd : [E, C]` into `x` at those row numbers adds to every row `n` of `x` the rows of `upd` whose row number,
  read signed and not clamped, is `n`; a row number outside `[0, N)` contributes nothing.
-/
import Idealize.ShloMosaic.PureOps.Ideal
import Idealize.ShloMosaic.Lib.ValueIdx

noncomputable section

open scoped BigOperators

namespace Cert.GNN.RowIndex

open Idealize.ShloMosaic Idealize.ShloMosaic.ValueIdx

/-! ## The gather of rows -/

section Gather
variable {α : Type}

/-- The dimension numbers of a row gather: operand `[N, C]`, start indices `[E, 1]` (the index vector on axis 1,
    of length one, naming operand axis 0), result `[E, C]` whose axis 1 is the offset axis over slices `[1, C]`
    with operand axis 0 collapsed. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the operand at row `idx[e, 0]` (read signed, clamped into `[0, N - 1]`),
    column `k`. -/
theorem gather_row_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hs : (rowGatherDims N E C wf).start (ix2 e k) idx 1 = 0 := by
      unfold GatherDims.start
      rw [dif_neg (show ¬ (1 : Fin 2) ∈ (rowGatherDims N E C wf).startIndexMap from
        (by decide : (1 : Fin 2) ∉ [(0 : Fin 2)]))]
    rw [hs]
    have hk : (1 : Fin 2) ∈ (rowGatherDims N E C wf).sKept :=
      (GatherDims.mem_sKept _ _).mpr ⟨(by decide : (1 : Fin 2) ∉ [(0 : Fin 2)]), List.not_mem_nil⟩
    unfold GatherDims.offCoord
    rw [dif_pos hk]
    simp only [Nat.zero_add, Nat.add_zero]
    rfl

/-- The row gather at an in-range row number: if `idx[e, 0]`, read signed, is the row number `r`, the result's
    row `e` is the operand's row `r`. -/
theorem gather_row_apply_of_eq {N E C w : Nat}
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) (r : Fin N)
    (h : (idx (ix2 e (0 : Fin 1))).toInt = (r.val : Int)) :
    Host.gather (rowGatherDims N E C wf) x idx (ix2 e k) = x (ix2 r k) := by
  have hN : 0 < N := Nat.lt_of_le_of_lt (Nat.zero_le _) r.isLt
  rw [gather_row_apply hN wf x idx e k]
  congr 2
  refine Fin.ext ?_
  show min (idx (ix2 e (0 : Fin 1))).toInt.toNat (N - 1) = r.val
  rw [h]
  have := r.isLt
  simp only [Int.toNat_natCast]
  omega

end Gather

/-! ## The scatter-add of rows -/

section Scatter

/-- The dimension numbers of a row scatter: operand `[N, C]`, scatter indices `[E, 1]` (the index vector on axis 1,
    of length one, naming operand axis 0), updates `[E, C]` whose axis 1 is the window axis, operand axis 0
    inserted. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window of update `j` starts at the row number `idx[j 0, 0]`, read signed. -/
theorem start_row (idx : IVec ⟨2, ![E, 1]⟩ w) (j : (⟨2, ![E, C]⟩ : Shape).Idx) :
    (rowScatterDims N E C wf).start j idx 0 = (idx (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis the window starts at `0`. -/
theorem start_col (idx : IVec ⟨2, ![E, 1]⟩ w) (j : (⟨2, ![E, C]⟩ : Shape).Idx) :
    (rowScatterDims N E C wf).start j idx 1 = 0 := by
  unfold ScatterDims.start
  rw [dif_neg (show ¬ (1 : Fin 2) ∈ (rowScatterDims N E C wf).scatterDimsToOperandDims from
    (by decide : (1 : Fin 2) ∉ [(0 : Fin 2)]))]

/-- The row axis is inserted: no window coordinate. -/
theorem window_row (j : (⟨2, ![E, C]⟩ : Shape).Idx) : (rowScatterDims N E C wf).window j 0 = 0 := by
  unfold ScatterDims.window
  rw [dif_neg (show ¬ (0 : Fin 2) ∈ (rowScatterDims N E C wf).sKept from
    (by decide : (0 : Fin 2) ∉ (List.finRange 2).filter (fun a => a ∉ [(0 : Fin 2)])))]

/-- The column axis carries the update's column. -/
theorem window_col (j : (⟨2, ![E, C]⟩ : Shape).Idx) : (rowScatterDims N E C wf).window j 1 = (j 1).val := by
  unfold ScatterDims.window
  rw [dif_pos (show (1 : Fin 2) ∈ (rowScatterDims N E C wf).sKept from
    (by decide : (1 : Fin 2) ∈ (List.finRange 2).filter (fun a => a ∉ [(0 : Fin 2)])))]
  rfl

/-- Update `j` lands at `(n, c)` exactly when its row number, read signed, is `n` and its column is `c`. -/
theorem resultIdx?_row_eq_some_iff (idx : IVec ⟨2, ![E, 1]⟩ w) (j : (⟨2, ![E, C]⟩ : Shape).Idx) (n : Fin N) (c : Fin C) :
    (rowScatterDims N E C wf).resultIdx? j idx = some (ix2 n c) ↔
      (idx (ix2 (j 0) (0 : Fin 1))).toInt = (n.val : Int) ∧ j 1 = c := by
  unfold ScatterDims.resultIdx?
  constructor
  · intro h
    split at h
    · rename_i hh
      have h' := Option.some.inj h
      have h0 : ((rowScatterDims N E C wf).start j idx 0 + ((rowScatterDims N E C wf).window j 0 : Int)).toNat = n.val :=
        congrArg (fun f => (f 0).val) h'
      have h1 : ((rowScatterDims N E C wf).start j idx 1 + ((rowScatterDims N E C wf).window j 1 : Int)).toNat = c.val :=
        congrArg (fun f => (f 1).val) h'
      have hh0 := (hh 0).1
      rw [start_row, window_row] at h0 hh0
      rw [start_col, window_col] at h1
      refine ⟨by omega, Fin.ext (by omega)⟩
    · exact absurd h (by simp)
  · rintro ⟨h0, h1⟩
    have hn := n.isLt
    have hc := c.isLt
    have hj1 : (j 1).val = c.val := congrArg Fin.val h1
    rw [dif_pos]
    · congr 1
      funext a
      refine Fin.ext ?_
      match a with
      | ⟨0, _⟩ =>
        show ((rowScatterDims N E C wf).start j idx 0 + ((rowScatterDims N E C wf).window j 0 : Int)).toNat = n.val
        rw [start_row, window_row, h0]; omega
      | ⟨1, _⟩ =>
        show ((rowScatterDims N E C wf).start j idx 1 + ((rowScatterDims N E C wf).window j 1 : Int)).toNat = c.val
        rw [start_col, window_col, hj1]; omega
    · intro a
      match a with
      | ⟨0, _⟩ =>
        show 0 ≤ (rowScatterDims N E C wf).start j idx 0 + ((rowScatterDims N E C wf).window j 0 : Int) ∧
          (rowScatterDims N E C wf).start j idx 0 + ((rowScatterDims N E C wf).window j 0 : Int) < (N : Int)
        rw [start_row, window_row, h0]; omega
      | ⟨1, _⟩ =>
        show 0 ≤ (rowScatterDims N E C wf).start j idx 1 + ((rowScatterDims N E C wf).window j 1 : Int) ∧
          (rowScatterDims N E C wf).start j idx 1 + ((rowScatterDims N E C wf).window j 1 : Int) < (C : Int)
        rw [start_col, window_col, hj1]; omega

/-- THE ROW SCATTER-ADD READ AT `(n, d)`: the operand's element plus the column-`d` elements of the update rows
    whose row number, read signed, is `n`. -/
theorem scatterAdd_row_apply (x : (⟨2, ![N, C]⟩ : Shape).Idx → EReal) (idx : IVec ⟨2, ![E, 1]⟩ w)
    (upd : (⟨2, ![E, C]⟩ : Shape).Idx → EReal) (n : Fin N) (d : Fin C) :
    Ideal.hostScatterAdd (rowScatterDims N E C wf) x idx upd (ix2 n d)
      = x (ix2 n d) + ∑ e ∈ Finset.univ.filter (fun e : Fin E => (idx (ix2 e (0 : Fin 1))).toInt = (n.val : Int)),
          upd (ix2 e d) := by
  unfold Ideal.hostScatterAdd
  congr 1
  rw [Finset.sum_filter, sum_idx2, Finset.sum_filter]
  refine Finset.sum_congr rfl (fun e _ => ?_)
  have hstep : ∀ b : Fin C,
      (if (rowScatterDims N E C wf).resultIdx? (ix2 e b) idx = some (ix2 n d) then upd (ix2 e b) else 0)
        = if d = b then (if (idx (ix2 e (0 : Fin 1))).toInt = (n.val : Int) then upd (ix2 e d) else 0) else 0 := by
    intro b
    by_cases hb : d = b
    · subst hb
      rw [if_pos rfl]
      refine if_congr ?_ rfl rfl
      rw [resultIdx?_row_eq_some_iff]
      exact ⟨fun h => h.1, fun h => ⟨h, rfl⟩⟩
    · rw [if_neg hb, if_neg]
      rw [resultIdx?_row_eq_some_iff]
      exact fun h => hb h.2.symm
  rw [Finset.sum_congr rfl (fun b _ => hstep b), Finset.sum_ite_eq]
  simp only [Finset.mem_univ, if_true]

/-- The same for `Host.scatterAdd` at the exact instance, which is that sum by definition. -/
theorem host_scatterAdd_row_apply {φ : FTy} (x : FVec Ideal ⟨2, ![N, C]⟩ φ) (idx : IVec ⟨2, ![E, 1]⟩ w)
    (upd : FVec Ideal ⟨2, ![E, C]⟩ φ) (n : Fin N) (d : Fin C) :
    Host.scatterAdd (rowScatterDims N E C wf) x idx upd (ix2 n d)
      = x (ix2 n d) + ∑ e ∈ Finset.univ.filter (fun e : Fin E => (idx (ix2 e (0 : Fin 1))).toInt = (n.val : Int)),
          upd (ix2 e d) :=
  scatterAdd_row_apply wf x idx upd n d

end Scatter

end Cert.GNN.RowIndex

end
-- ==== Proof.LibFiniteOps.lean ====
/-
  Finiteness through the vector operations of the ideal values. With `AllReal v` (every entry of
  `v` a real number): a re-indexing of a finite vector (broadcasts, shape casts, slices, transposes,
  a gather) is finite; a matrix product (`tpu.matmul` onto a finite accumulator, the host's
  `dot_general`) of finite operands is finite — at each index a finite sum of products —; so are a
  sum reduction (`vector.multi_reduction <add>`, the host's `reduce … add` from a finite initial
  value) and the host's accumulating scatter of finite updates into a finite operand. A scatter of
  nonnegative updates into a nonnegative operand is nonnegative: a count (ones scattered into zeros)
  is a real `≥ 0`, and its maximum with `1` is a real `≥ 1`, in particular finite and nonzero — a
  divisor the quotient of finite values stays finite by.
-/
import proofs.«170506_j19688130085401_2_alg».proof.Proof.LibFinite

open scoped BigOperators
open Idealize.ShloMosaic

namespace LibFinite

variable {φ φ₁ φ₂ : FTy} {s t : Shape}

/-! ### Constants -/

/-- The f32 pattern of `1.0` is the extended real `1`. -/
theorem f32_one : Ideal.ofBits .f32 0x3F800000#32 = 1 := by
  simp [Ideal.ofBits, Ideal.ieee, -EReal.coe_mul]; norm_num

theorem allReal_constant_zero_f32 (s : Shape) : AllReal (constant (F := Ideal) s .f32 0x00000000#32) :=
  fun _ => by show IsReal (Ideal.ofBits .f32 0x00000000#32); rw [Ideal.ofBits_zero_f32]; exact isReal_zero
theorem allReal_constant_one_f32 (s : Shape) : AllReal (constant (F := Ideal) s .f32 0x3F800000#32) :=
  fun _ => by show IsReal (Ideal.ofBits .f32 0x3F800000#32); rw [f32_one]; exact isReal_one
/-- A constant whose pattern denotes a real. -/
theorem allReal_constant_of_eq (s : Shape) (φ : FTy) (b : BitVec φ.bits) {r : ℝ} (hb : Ideal.ofBits φ b = (r : EReal)) :
    AllReal (constant (F := Ideal) s φ b) :=
  fun _ => ⟨r, hb⟩

/-! ### Re-indexings -/

/-- Reading a finite vector through any map of indices gives a finite vector. -/
theorem allReal_comp {x : s.Idx → EReal} (hx : AllReal x) (f : t.Idx → s.Idx) : AllReal (fun j => x (f j)) :=
  fun j => hx (f j)

theorem allReal_broadcastTo {x : s.Idx → EReal} (hx : AllReal x) (t : Shape) (h : s.Broadcasts t) :
    AllReal (broadcastTo t x h) := fun _ => hx _
theorem allReal_broadcastInDim {x : s.Idx → EReal} (hx : AllReal x) (t : Shape) (dims : Fin s.rank → Fin t.rank)
    (h : s.BroadcastsInDim t dims) : AllReal (broadcastInDim t dims h x) := fun _ => hx _
theorem allReal_shapeCast {x : s.Idx → EReal} (hx : AllReal x) (t : Shape) (h : s.ShapeCasts t) :
    AllReal (shapeCast t x h) := fun _ => hx _
theorem allReal_extractStridedSlice {x : s.Idx → EReal} (hx : AllReal x) (t : Shape) (off : Fin s.rank → Nat)
    (h : s.Slices off t) : AllReal (extractStridedSlice t off x h) := fun _ => hx _
theorem allReal_transpose {x : s.Idx → EReal} (hx : AllReal x) (t : Shape) (perm : List (Fin s.rank))
    (h : s.Transposes perm t) : AllReal (transpose t perm x h) := fun _ => hx _
/-- The host's gather reads the operand at an index computed from the start indices: finite operand,
    finite result, whatever the indices. -/
theorem allReal_gather {si : Shape} {w : Nat} (d : GatherDims s si t) {x : s.Idx → EReal} (hx : AllReal x)
    (idx : IVec si w) : AllReal (Host.gather d x idx) := fun _ => hx _

/-! ### Products -/

/-- `tpu.matmul` of finite operands onto a finite accumulator. -/
theorem allReal_matmul {sl sr so : Shape} (d : DotDims sl sr so) (prec : Option ContractPrecision)
    {lhs : FVec Ideal sl φ₁} {rhs : FVec Ideal sr φ₂} {acc : FVec Ideal so .f32}
    (hl : AllReal lhs) (hr : AllReal rhs) (ha : AllReal acc) : AllReal (matmul d prec lhs rhs acc) := fun j => by
  show IsReal (FloatOps.matmul d prec lhs rhs acc j)
  rw [Ideal.matmul_apply]
  exact (ha j).add (isReal_sum _ _ fun k _ => (hl _).mul (hr _))

/-- …onto the zero splat. -/
theorem allReal_matmul_zero {sl sr so : Shape} (d : DotDims sl sr so) (prec : Option ContractPrecision)
    {lhs : FVec Ideal sl φ₁} {rhs : FVec Ideal sr φ₂} (hl : AllReal lhs) (hr : AllReal rhs) :
    AllReal (matmul d prec lhs rhs (constant so .f32 0x00000000#32)) :=
  allReal_matmul d prec hl hr (allReal_constant_zero_f32 so)

/-- The host's `dot_general` of finite operands, at any schedule key. -/
theorem allReal_dotGeneralAt {sl sr so : Shape} (d : DotDims sl sr so) (prec : Option ContractPrecision)
    (sched : HostSchedule) {lhs : FVec Ideal sl φ₁} {rhs : FVec Ideal sr φ₂} (hl : AllReal lhs) (hr : AllReal rhs) :
    AllReal (FloatOps.dotGeneral d prec sched lhs rhs) := fun j => by
  rw [Ideal.dotGeneral_apply]
  exact isReal_sum _ _ fun k _ => (hl _).mul (hr _)

theorem allReal_dotGeneral {sl sr so : Shape} (d : DotDims sl sr so) (prec : Option ContractPrecision)
    {lhs : FVec Ideal sl φ₁} {rhs : FVec Ideal sr φ₂} (hl : AllReal lhs) (hr : AllReal rhs) :
    AllReal (Host.dotGeneral d prec lhs rhs) := allReal_dotGeneralAt d prec .single hl hr

/-! ### Sum reductions -/

/-- `vector.multi_reduction <add>` of a finite vector, over any axes. -/
theorem allReal_multiReduction_add {axes : List (Fin s.rank)} {src : FVec Ideal s φ} (hsrc : AllReal src)
    (acc : BitVec φ.bits) (h : s.Reduces axes t) (hφ : FKind.Formats φ) (hacc : acc = FKind.add.neutral φ hφ) :
    AllReal (multiReduction .add axes t src acc h hφ hacc) := fun j => by
  show IsReal (Ideal.reduceAdd h src j)
  unfold Ideal.reduceAdd
  exact isReal_sum _ _ fun i _ => hsrc i

/-- The host's `reduce … add` of a finite vector from a finite initial value, over any axes. -/
theorem allReal_hostReduceAdd {axes : List (Fin s.rank)} {u : Shape} {x : FVec Ideal s φ} (hx : AllReal x)
    {init : u.Idx → Ideal φ} (hinit : ∀ k, IsReal (init k)) (h : s.ReducesTo axes t) (hu : 0 < u.numel) :
    AllReal (Host.reduceAdd x init h hu) := fun j => by
  show IsReal (Ideal.hostReduceAdd h x (init (Shape.Idx.first hu)) j)
  unfold Ideal.hostReduceAdd
  exact (hinit _).add (isReal_sum _ _ fun i _ => hx i)

/-! ### The accumulating scatter -/

/-- The host's float scatter-add of finite updates into a finite operand is finite, whatever the indices. -/
theorem allReal_scatterAdd {si u : Shape} {w : Nat} (d : ScatterDims s si u) {x : FVec Ideal s φ} (hx : AllReal x)
    (idx : IVec si w) {upd : FVec Ideal u φ} (hupd : AllReal upd) : AllReal (Host.scatterAdd d x idx upd) := fun i => by
  show IsReal (Ideal.hostScatterAdd d x idx upd i)
  unfold Ideal.hostScatterAdd
  exact (hx i).add (isReal_sum _ _ fun j _ => hupd j)

/-- …and nonnegative when the operand and the updates are. -/
theorem scatterAdd_nonneg {si u : Shape} {w : Nat} (d : ScatterDims s si u) {x : FVec Ideal s φ} (hx : ∀ i, 0 ≤ x i)
    (idx : IVec si w) {upd : FVec Ideal u φ} (hupd : ∀ j, 0 ≤ upd j) (i : s.Idx) : 0 ≤ Host.scatterAdd d x idx upd i := by
  show 0 ≤ Ideal.hostScatterAdd d x idx upd i
  unfold Ideal.hostScatterAdd
  exact add_nonneg (hx i) (Finset.sum_nonneg fun j _ => hupd j)

/-- A count — ones scattered into zeros — is at each element a real `≥ 0`. -/
theorem scatterAdd_count {si u : Shape} {w : Nat} (d : ScatterDims s si u) {x : FVec Ideal s φ} (hx : ∀ i, x i = 0)
    (idx : IVec si w) {upd : FVec Ideal u φ} (hupd : ∀ j, upd j = 1) (i : s.Idx) :
    IsReal (Host.scatterAdd d x idx upd i) ∧ 0 ≤ Host.scatterAdd d x idx upd i :=
  ⟨allReal_scatterAdd d (fun i => by rw [hx i]; exact isReal_zero) idx (fun j => by rw [hupd j]; exact isReal_one) i,
   scatterAdd_nonneg d (fun i => (hx i).ge) idx (fun j => by rw [hupd j]; exact zero_le_one) i⟩

/-- The maximum of a finite value with `1` is finite, at least `1`, and not zero. -/
theorem max_one_spec {c : EReal} (hc : IsReal c) : IsReal (max c 1) ∧ 1 ≤ max c 1 ∧ max c 1 ≠ 0 :=
  ⟨hc.max isReal_one, le_max_right c 1, (lt_of_lt_of_le zero_lt_one (le_max_right c 1)).ne'⟩

/-- Entrywise: `maximumf v ones` of a finite vector is finite and nowhere zero. -/
theorem allReal_max_one {v one : FVec Ideal s φ} (hv : AllReal v) (hone : ∀ i, one i = 1) :
    AllReal (maximumf v one) ∧ ∀ i, maximumf v one i ≠ 0 := by
  refine ⟨fun i => ?_, fun i => ?_⟩
  · show IsReal (max (v i) (one i)); rw [hone i]; exact (max_one_spec (hv i)).1
  · show max (v i) (one i) ≠ 0; rw [hone i]; exact (max_one_spec (hv i)).2.2

end LibFinite
-- ==== Proof.LibSpmm.lean ====
/-
  The product of a sparse matrix with a dense one, as a gather, a scaling and a scatter-add of rows.

  The sparse matrix is a list of `E` entries: entry `e` has a row number `row e`, a column number `col e` and a
  value `val e`. Its product with a dense `[N, C]` matrix `y` is computed in three steps: row `e` of the gathered
  matrix is the row of `y` numbered `col e` (read signed and clamped into `[0, N - 1]`); that row is scaled by
  `val e`; and the scaled rows are added into a zero `[N, C]` matrix at their row numbers (an entry whose row number,
  read signed, is outside `[0, N)` is dropped). Read at `(n, d)` the result is

      ∑ over the entries e whose row number is n, of  val e * y (source row of e, d).

  The product keeps finite matrices finite, whatever the row and column numbers are.
-/
import proofs.«170506_j19688130085401_2_alg».proof.Proof.LibRowIndex
import proofs.«170506_j19688130085401_2_alg».proof.Proof.LibFiniteOps
import Idealize.ShloMosaic.Lib.Pipeline.Value
import Idealize.ShloMosaic.Lib.ValueIdx
import Idealize.ShloMosaic.PureOps.Ideal.Laws

noncomputable section

open scoped BigOperators

namespace Cert.SparseProd

open Idealize.ShloMosaic Idealize.ShloMosaic.ValueIdx Cert.GNN.RowIndex LibFinite

section
variable {N E C : Nat}
  (hE1 : (⟨1, ![E]⟩ : Shape).BroadcastsInDim ⟨2, ![E, 1]⟩ (![0] : Fin 1 → Fin 2))
  (hEC : (⟨2, ![E, 1]⟩ : Shape).BroadcastsInDim ⟨2, ![E, C]⟩ (![0, 1] : Fin 2 → Fin 2))
  (hNC : (⟨0, ![]⟩ : Shape).BroadcastsInDim ⟨2, ![N, C]⟩ (![] : Fin 0 → Fin 2))
  (wfG : GatherDims.WF ⟨2, ![N, C]⟩ ⟨2, ![E, 1]⟩ ⟨2, ![E, C]⟩ [1] [0] [] [0] [] 1 ![1, C])
  (wfS : ScatterDims.WF ⟨2, ![N, C]⟩ ⟨2, ![E, 1]⟩ ⟨2, ![E, C]⟩ [1] [0] [0] 1)

/-- The sparse product as the host computes it: gather the rows of `y` numbered by `col`, scale row `e` by
    `val e`, scatter-add the scaled rows into the zero matrix at the row numbers `row`. -/
def spmm (row col : IVec ⟨1, ![E]⟩ 32) (val : FVec Ideal ⟨1, ![E]⟩ .f32) (y : FVec Ideal ⟨2, ![N, C]⟩ .f32) :
    FVec Ideal ⟨2, ![N, C]⟩ .f32 :=
  Host.scatterAdd (rowScatterDims N E C wfS)
    (broadcastInDim ⟨2, ![N, C]⟩ ![] hNC (constant (F := Ideal) ⟨0, ![]⟩ .f32 0x00000000#32))
    (broadcastInDim ⟨2, ![E, 1]⟩ ![0] hE1 row)
    (mulf (broadcastInDim ⟨2, ![E, C]⟩ ![0, 1] hEC (broadcastInDim ⟨2, ![E, 1]⟩ ![0] hE1 val))
      (Host.gather (rowGatherDims N E C wfG) y (broadcastInDim ⟨2, ![E, 1]⟩ ![0] hE1 col)))

/-- The row of the dense matrix that entry `e` reads: its column number, read signed and clamped into `[0, N - 1]`. -/
def srcRow (hN : 0 < N) (col : IVec ⟨1, ![E]⟩ 32) (e : Fin E) : Fin N :=
  ⟨min (col (ix1 e)).toInt.toNat (N - 1), by omega⟩

/-- A vector laid as a one-column matrix reads, at `(e, u)`, the vector at `e`. -/
theorem column_apply {α : Type} (x : (⟨1, ![E]⟩ : Shape).Idx → α) (e : Fin E) (u : Fin 1) :
    broadcastInDim ⟨2, ![E, 1]⟩ ![0] hE1 x (ix2 e u) = x (ix1 e) :=
  broadcastInDim_apply _ hE1 x (ix2 e u) (ix1 e) (fun a => match a with
    | ⟨0, _⟩ => by
      show e.val = if E = 1 then 0 else e.val
      split
      · have := e.isLt; omega
      · rfl)

/-- A one-column matrix repeated along the rows reads, at `(e, d)`, the column at `e`. -/
theorem repeat_apply {α : Type} (x : (⟨2, ![E, 1]⟩ : Shape).Idx → α) (e : Fin E) (d : Fin C) :
    broadcastInDim ⟨2, ![E, C]⟩ ![0, 1] hEC x (ix2 e d) = x (ix2 e (0 : Fin 1)) :=
  broadcastInDim_apply _ hEC x (ix2 e d) (ix2 e (0 : Fin 1)) (fun a => match a with
    | ⟨0, _⟩ => by
      show e.val = if E = 1 then 0 else e.val
      split
      · have := e.isLt; omega
      · rfl
    | ⟨1, _⟩ => by
      show 0 = if (1 : Nat) = 1 then 0 else d.val
      rw [if_pos rfl])

/-- THE SPARSE PRODUCT READ AT `(n, d)`: the sum, over the entries whose row number (read signed) is `n`, of the
    entry's value times the dense matrix at the entry's source row, column `d`. -/
theorem spmm_apply (hN : 0 < N) (row col : IVec ⟨1, ![E]⟩ 32) (val : FVec Ideal ⟨1, ![E]⟩ .f32)
    (y : FVec Ideal ⟨2, ![N, C]⟩ .f32) (n : Fin N) (d : Fin C) :
    spmm hE1 hEC hNC wfG wfS row col val y (ix2 n d)
      = ∑ e ∈ Finset.univ.filter (fun e : Fin E => (row (ix1 e)).toInt = (n.val : Int)),
          val (ix1 e) * y (ix2 (srcRow hN col e) d) := by
  unfold spmm
  rw [host_scatterAdd_row_apply]
  have hz : broadcastInDim ⟨2, ![N, C]⟩ ![] hNC (constant (F := Ideal) ⟨0, ![]⟩ .f32 0x00000000#32) (ix2 n d) = 0 := by
    rw [broadcastInDim_apply _ hNC _ _ ix0 (fun a => a.elim0)]
    exact Ideal.ofBits_zero_f32
  rw [hz, zero_add]
  refine Finset.sum_congr (Finset.filter_congr (fun e _ => by rw [column_apply hE1])) (fun e _ => ?_)
  show (broadcastInDim ⟨2, ![E, C]⟩ ![0, 1] hEC (broadcastInDim ⟨2, ![E, 1]⟩ ![0] hE1 val) (ix2 e d))
      * (Host.gather (rowGatherDims N E C wfG) y (broadcastInDim ⟨2, ![E, 1]⟩ ![0] hE1 col) (ix2 e d)) = _
  rw [repeat_apply hEC, column_apply hE1, gather_row_apply hN wfG]
  have hc := column_apply hE1 col e (0 : Fin 1)
  refine congrArg (fun r => val (ix1 e) * y (ix2 r d)) (Fin.ext ?_)
  show min (broadcastInDim ⟨2, ![E, 1]⟩ ![0] hE1 col (ix2 e (0 : Fin 1))).toInt.toNat (N - 1)
    = min (col (ix1 e)).toInt.toNat (N - 1)
  rw [hc]

/-- The sparse product of a finite matrix by finite values is finite. -/
theorem allReal_spmm (row col : IVec ⟨1, ![E]⟩ 32) {val : FVec Ideal ⟨1, ![E]⟩ .f32} (hval : AllReal val)
    {y : FVec Ideal ⟨2, ![N, C]⟩ .f32} (hy : AllReal y) : AllReal (spmm hE1 hEC hNC wfG wfS row col val y) :=
  allReal_scatterAdd _ (allReal_broadcastInDim (allReal_constant_zero_f32 _) _ _ _) _
    (allReal_mulf (allReal_broadcastInDim (allReal_broadcastInDim hval _ _ _) _ _ _) (allReal_gather _ hy _))

end

end Cert.SparseProd

end
-- ==== Proof.KernelHost.lean ====
/-
  The host operations around the region.

  Before the region the host mixes the node features with the sparse matrix: the region's first operand is the
  sparse product of the features. After the region the host mixes the region's output in the same way: the
  program's result is the sparse product of the array the region leaves. In both places the column numbers are
  first normalised (a negative number counts from the end: `N` is added to it).
-/
import proofs.«170506_j19688130085401_2_alg».proof.Proof.Gen.KernelIdeal.Frame
import proofs.«170506_j19688130085401_2_alg».proof.Proof.LibSpmm
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Cert.SparseProd

/-- The column numbers as the gather reads them: a negative one has `100000` added. -/
def ncol (x2 : IVec S1600000 32) : IVec S1600000 32 :=
  select (cmpi .slt x2 (broadcastInDim S1600000 ![] bcast_S_S1600000 (constantI S_ 32 0#32)))
    (addi x2 (broadcastInDim S1600000 ![] bcast_S_S1600000 (constantI S_ 32 100000#32))) x2

/-- The sparse matrix (rows `x1`, columns `x2`, values `x3`) applied to a `[100000, 64]` matrix. -/
def mix (x1 x2 : IVec S1600000 32) (x3 : FVec Ideal S1600000 .f32) (y : FVec Ideal S100000x64 .f32) :
    FVec Ideal S100000x64 .f32 :=
  spmm (N := 100000) (E := 1600000) (C := 64) bcast_S1600000_S1600000x1_0 bcast_S1600000x1_S1600000x64_0_1
    bcast_S_S100000x64 gather_S100000x64_S1600000x1_S1600000x64_1_0_n_n_0_1_164_wf
    scatter_S100000x64_S1600000x1_S1600000x64_1_0_0_1_wf x1 (ncol x2) x3 y

variable (m : (ℓ : Loc nD τ sig) → Buf (Elt Ideal) ℓ)

/-- The region's first operand, as the region finds it: the sparse product of the features. -/
theorem V_opnd0 (c : Dev nD) :
    (V m c (Pipeline.arrRef spec0 0) : S100000x64.Idx → EReal)
      = mix (m ((c : Thread nD τ).loc main_arg1)) (m ((c : Thread nD τ).loc main_arg2))
          (m ((c : Thread nD τ).loc main_arg3)) (m ((c : Thread nD τ).loc main_arg0)) := by
  show StableHlo.after hostOps0 (fun b => m (c, b)) (Proc.devRef .tc main_v12) = _
  after_results
  rfl

/-- The region's second and third operands, as the region finds them: the two weight matrices as launched. -/
theorem V_opnd1 (c : Dev nD) :
    (V m c (Pipeline.arrRef spec0 1) : S64x128.Idx → EReal) = m ((c : Thread nD τ).loc main_arg4) :=
  V_main_arg4 m c

theorem V_opnd2 (c : Dev nD) :
    (V m c (Pipeline.arrRef spec0 2) : S128x64.Idx → EReal) = m ((c : Thread nD τ).loc main_arg5) :=
  V_main_arg5 m c

/-- The host operations after the region, run from any contents `W`: the result is the sparse product of what the
    region's output array holds in `W`. -/
theorem tail_of (W : Valuation τ sig (Elt Ideal)) :
    (StableHlo.after hostOps1 W (Proc.devRef .tc main_v26) : S100000x64.Idx → EReal)
      = mix (W (Proc.devRef .tc main_arg1)) (W (Proc.devRef .tc main_arg2)) (W (Proc.devRef .tc main_arg3))
          (W (Proc.devRef .tc main_v13)) := by
  after_results
  rfl

/-- The program's result after the host operations that follow the region: the sparse product of whatever the
    region's output array holds then. -/
theorem tail_main_v26 (c : Dev nD) (T : FVec Ideal S100000x64 .f32) (hT : (dats m 0 c).arrAt 3 cfg0.N = T) :
    (Pipeline.afterTail₀ cfgs (dats m) 0 (V0 m) [hostOps1] c main_v26 : S100000x64.Idx → EReal)
      = mix (m ((c : Thread nD τ).loc main_arg1)) (m ((c : Thread nD τ).loc main_arg2))
          (m ((c : Thread nD τ).loc main_arg3)) T := by
  unfold Pipeline.afterTail₀
  refine (tail_of _).trans ?_
  have e1 := (Pipeline.withArrays_of_ne spec0 c (V0 m c) (fun w => (dats m 0 c).arrAt w cfg0.N) main_arg1
    (by exact (by decide : ∀ w, Pipeline.arrRef spec0 w ≠ main_arg1))).trans (V_main_arg1 m c)
  have e2 := (Pipeline.withArrays_of_ne spec0 c (V0 m c) (fun w => (dats m 0 c).arrAt w cfg0.N) main_arg2
    (by exact (by decide : ∀ w, Pipeline.arrRef spec0 w ≠ main_arg2))).trans (V_main_arg2 m c)
  have e3 := (Pipeline.withArrays_of_ne spec0 c (V0 m c) (fun w => (dats m 0 c).arrAt w cfg0.N) main_arg3
    (by exact (by decide : ∀ w, Pipeline.arrRef spec0 w ≠ main_arg3))).trans (V_main_arg3 m c)
  have e13 := (Pipeline.withArrays_arr spec0 launch0.win.arr_inj c (V0 m c) (fun w => (dats m 0 c).arrAt w cfg0.N) 3).trans hT
  exact congr (congr (congr (congrArg mix e1) e2) e3) e13

end Cert.KernelIdeal.HostSide

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.KernelBody.lean ====
/-
  The kernel body's arithmetic, read at an index.

  At one grid point the body holds a block `z` of 10000 rows of the mixed features ([10000, 64]) and both weight
  matrices whole (`w1 : [64, 128]`, `w3 : [128, 64]`). It stores `max (z w1, 0) w3`: at row `p`, column `q`,

      ∑ k, max (∑ j, z (p, j) * w1 (j, k), 0) * w3 (k, q),

  both products being plain rows-by-columns products into a zero accumulator, and the block's re-laying before the
  first product a cast between equal shapes.
-/
import proofs.«170506_j19688130085401_2_alg».proof.Proof.Gen.KernelIdeal.Skeleton
import proofs.«170506_j19688130085401_2_alg».proof.Proof.LibPlainMatmul
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.LibPlainMatmul

/-- THE STORED VALUE AT `(p, q)`: the hidden row of `p` — the maximum with zero of row `p` of `z w1` — times
    column `q` of `w3`. -/
theorem pay_apply (z : Vec Ideal S10000x64 .f32) (w1 : Vec Ideal S64x128 .f32) (w3 : Vec Ideal S128x64 .f32)
    (p : Fin 10000) (q : Fin 64) :
    k0_pay1 (F := Ideal) z w1 w3 (ix2 p q)
      = ∑ k : Fin 128, max (∑ j : Fin 64, z (ix2 p j) * w1 (ix2 j k)) 0 * w3 (ix2 k q) := by
  unfold k0_pay1
  refine (matmul_zero_plain _ _ _ p q).trans ?_
  refine Finset.sum_congr rfl fun k _ => ?_
  refine congrArg (· * w3 (ix2 k q)) (?_ : max _ _ = max _ _)
  refine congrArg₂ max ?_ Ideal.ofBits_zero_f32
  refine (matmul_zero_plain _ _ _ p k).trans ?_
  refine Finset.sum_congr rfl fun j _ => ?_
  exact congrArg (· * w1 (ix2 j k)) (congrFun (shapeCast_self z _) (ix2 p j))

end Cert.KernelIdeal.Body

end
-- ==== Proof.KernelDense.lean ====
/-
  Both dense layers, row by row.

  For a matrix `z : [100000, 64]` (a row per node) and weights `w1 : [64, 128]`, `w3 : [128, 64]`,

      dense z w1 w3 (r, q) = ∑ k, max (∑ j, z (r, j) * w1 (j, k), 0) * w3 (k, q):

  row `r` of `z` goes through the first layer, the maximum with zero, and the second layer. Row `r` of the result
  depends on row `r` of `z` only.
-/
import proofs.«170506_j19688130085401_2_alg».proof.KernelIdeal
import Idealize.ShloMosaic.Lib.ValueIdx
import Idealize.ShloMosaic.PureOps.Ideal

noncomputable section

open scoped BigOperators

namespace Cert.KernelIdeal.Region

open Cert.KernelIdeal Idealize.ShloMosaic Idealize.ShloMosaic.ValueIdx

/-- Row `r` of `z` through both dense layers: `max (z w1, 0) w3` at `(r, q)`. -/
def dense (z : FVec Ideal S100000x64 .f32) (w1 : FVec Ideal S64x128 .f32) (w3 : FVec Ideal S128x64 .f32) :
    FVec Ideal S100000x64 .f32 :=
  fun i => ∑ k : Fin 128, max (∑ j : Fin 64, z (ix2 (i 0) j) * w1 (ix2 j k)) 0 * w3 (ix2 k (i 1))

theorem dense_apply (z : FVec Ideal S100000x64 .f32) (w1 : FVec Ideal S64x128 .f32) (w3 : FVec Ideal S128x64 .f32)
    (r : Fin 100000) (q : Fin 64) :
    dense z w1 w3 (ix2 r q) = ∑ k : Fin 128, max (∑ j : Fin 64, z (ix2 r j) * w1 (ix2 j k)) 0 * w3 (ix2 k q) := rfl

end Cert.KernelIdeal.Region

end
-- ==== Proof.KernelRegion.lean ====
/-
  From the blocks to the array the region leaves.

  The grid has ten points. Point `t` works on rows `10000 t … 10000 t + 9999` of the region's first operand and of
  its output, and on both weight matrices whole. What it writes back is its block of the one whole-array function
  `dense` of the operands as the region finds them: row `r` of the output depends on row `r` of the first operand
  only. The ten row blocks tile the output (row `r` is in the block of point `r / 10000`), so after the region the
  output array holds `dense` everywhere.
-/
import proofs.«170506_j19688130085401_2_alg».proof.Proof.Gen.KernelIdeal.Frame
import proofs.«170506_j19688130085401_2_alg».proof.Proof.KernelBody
import proofs.«170506_j19688130085401_2_alg».proof.Proof.KernelDense
import Idealize.ShloMosaic.Lib.Pipeline.Value
import Idealize.ShloMosaic.Lib.ValueIdx

set_option maxRecDepth 16384

noncomputable section

open scoped BigOperators

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The printed index maps over the ten points: the row-blocked windows sit at block `t` of the rows, the weight
    windows at block zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s block is row `10000 t + p` of the array. -/
def rowOf (t : Fin cfg0.N) (p : Fin 10000) : Fin 100000 :=
  ⟨t.val * 10000 + p.val, by have := t.isLt; have : cfg0.N = 10 := N_0; have := p.isLt; omega⟩

/-- Where the row-blocked windows' blocks sit: index `(p, j)` of point `t`'s block is `(10000 t + p, j)`. -/
theorem emb0_eq (t : Fin cfg0.N) (y : S10000x64.Idx) :
    ((cfg0.win 0).blk t).view.emb y = (ix2 (rowOf t (y 0)) (y 1) : S100000x64.Idx) := by
  refine funext fun a => Fin.ext ?_
  obtain ⟨e0, e1, -⟩ := idx_facts t
  match a with
  | ⟨0, _⟩ => show win0_0.index t (0 : Fin 2) * 10000 + 1 * (y 0).val = t.val * 10000 + (y 0).val; omega
  | ⟨1, _⟩ => show win0_0.index t (1 : Fin 2) * 64 + 1 * (y 1).val = (y 1).val; omega

theorem emb3_eq (t : Fin cfg0.N) (y : S10000x64.Idx) :
    ((cfg0.win 3).blk t).view.emb y = (ix2 (rowOf t (y 0)) (y 1) : S100000x64.Idx) := by
  refine funext fun a => Fin.ext ?_
  obtain ⟨-, -, -, -, -, -, e0, e1⟩ := idx_facts t
  match a with
  | ⟨0, _⟩ => show win0_3.index t (0 : Fin 2) * 10000 + 1 * (y 0).val = t.val * 10000 + (y 0).val; omega
  | ⟨1, _⟩ => show win0_3.index t (1 : Fin 2) * 64 + 1 * (y 1).val = (y 1).val; omega

/-- The weight windows' blocks are the whole matrices. -/
theorem emb1_eq (t : Fin cfg0.N) (y : S64x128.Idx) : ((cfg0.win 1).blk t).view.emb y = y := by
  refine funext fun a => Fin.ext ?_
  obtain ⟨-, -, e0, e1, -⟩ := idx_facts t
  match a with
  | ⟨0, _⟩ => show win0_1.index t (0 : Fin 2) * 64 + 1 * (y 0).val = (y 0).val; omega
  | ⟨1, _⟩ => show win0_1.index t (1 : Fin 2) * 128 + 1 * (y 1).val = (y 1).val; omega

theorem emb2_eq (t : Fin cfg0.N) (y : S128x64.Idx) : ((cfg0.win 2).blk t).view.emb y = y := by
  refine funext fun a => Fin.ext ?_
  obtain ⟨-, -, -, -, e0, e1, -⟩ := idx_facts t
  match a with
  | ⟨0, _⟩ => show win0_2.index t (0 : Fin 2) * 128 + 1 * (y 0).val = (y 0).val; omega
  | ⟨1, _⟩ => show win0_2.index t (1 : Fin 2) * 64 + 1 * (y 1).val = (y 1).val; omega

/-- A block of the first operand, read through the window at point `t`, is the array at the point's rows. -/
theorem read0 (c : Dev nD) (t : Fin cfg0.N)
    (A : Buf (Elt Ideal) ((c : Thread nD τ).loc (Pipeline.arrRef spec0 0))) (y : S10000x64.Idx) :
    ((cfg0.win 0).blk t).view.read (Elt Ideal) A y = (A : S100000x64.Idx → EReal) (ix2 (rowOf t (y 0)) (y 1)) := by
  show (A : S100000x64.Idx → EReal) (((cfg0.win 0).blk t).view.emb y) = _
  rw [emb0_eq]

/-- The first weight matrix's block is the whole matrix. -/
theorem read1 (c : Dev nD) (t : Fin cfg0.N)
    (A : Buf (Elt Ideal) ((c : Thread nD τ).loc (Pipeline.arrRef spec0 1))) (y : S64x128.Idx) :
    ((cfg0.win 1).blk t).view.read (Elt Ideal) A y = (A : S64x128.Idx → EReal) y := by
  show (A : S64x128.Idx → EReal) (((cfg0.win 1).blk t).view.emb y) = _
  rw [emb1_eq]

/-- The second weight matrix's block is the whole matrix. -/
theorem read2 (c : Dev nD) (t : Fin cfg0.N)
    (A : Buf (Elt Ideal) ((c : Thread nD τ).loc (Pipeline.arrRef spec0 2))) (y : S128x64.Idx) :
    ((cfg0.win 2).blk t).view.read (Elt Ideal) A y = (A : S128x64.Idx → EReal) y := by
  show (A : S128x64.Idx → EReal) (((cfg0.win 2).blk t).view.emb y) = _
  rw [emb2_eq]

/-- One entry of what point `t` stores: the body's arithmetic on the blocks is `dense` of the arrays at the
    entry's place in the output array. -/
theorem point_eq (t : Fin cfg0.N) (z : Vec Ideal S10000x64 .f32) (w1 : Vec Ideal S64x128 .f32)
    (w3 : Vec Ideal S128x64 .f32) (Z : FVec Ideal S100000x64 .f32) (W1 : FVec Ideal S64x128 .f32)
    (W3 : FVec Ideal S128x64 .f32)
    (hz0 : ∀ y : S10000x64.Idx, z y = Z (ix2 (rowOf t (y 0)) (y 1))) (h1 : ∀ y, w1 y = W1 y) (h3 : ∀ y, w3 y = W3 y)
    (y : S10000x64.Idx) :
    k0_pay1 (F := Ideal) z w1 w3 y = dense Z W1 W3 (ix2 (rowOf t (y 0)) (y 1)) := by
  obtain ⟨p, q, rfl⟩ : ∃ (p : Fin 10000) (q : Fin 64), y = ix2 p q := ⟨y 0, y 1, eq_ix2 y⟩
  refine (Body.pay_apply z w1 w3 p q).trans ?_
  show _ = dense Z W1 W3 (ix2 (rowOf t p) q)
  rw [dense_apply]
  refine Finset.sum_congr rfl fun k _ => ?_
  rw [h3]
  refine congrArg (fun s => max s 0 * W3 (ix2 k q)) ?_
  refine Finset.sum_congr rfl fun j _ => ?_
  rw [hz0, h1]

/-- One point's work on ANY three arrays: the body's stored block, computed from the arrays' blocks at point `t`, is
    block `t` of `dense` of the arrays. -/
theorem region_point (c : Dev nD) (t : Fin cfg0.N)
    (A0 : Buf (Elt Ideal) ((c : Thread nD τ).loc (Pipeline.arrRef spec0 0)))
    (A1 : Buf (Elt Ideal) ((c : Thread nD τ).loc (Pipeline.arrRef spec0 1)))
    (A2 : Buf (Elt Ideal) ((c : Thread nD τ).loc (Pipeline.arrRef spec0 2))) :
    (cfg0.win 3).cut (grid0.coords t)
        (out0_3 (F := Ideal) (((cfg0.win 0).blk t).view.read (Elt Ideal) A0)
          (((cfg0.win 1).blk t).view.read (Elt Ideal) A1) (((cfg0.win 2).blk t).view.read (Elt Ideal) A2))
      = ((cfg0.win 3).blk t).view.read (Elt Ideal) (dense A0 A1 A2) := by
  unfold out0_3
  rw [View.canon_unit_zero hz]
  simp only [View.ld_unit_zero (S := S10000x64) hz, View.ld_unit_zero (S := S64x128) hz, View.ld_unit_zero (S := S128x64) hz]
  funext y
  show k0_pay1 (((cfg0.win 0).blk t).view.read (Elt Ideal) A0) (((cfg0.win 1).blk t).view.read (Elt Ideal) A1)
      (((cfg0.win 2).blk t).view.read (Elt Ideal) A2) y
    = dense A0 A1 A2 (((cfg0.win 3).blk t).view.emb y)
  rw [emb3_eq]
  exact point_eq t _ _ _ A0 A1 A2 (read0 c t A0) (read1 c t A1) (read2 c t A2) y

/-- WHAT POINT `t` WRITES BACK is block `t` of `dense` of the operands as the region finds them. -/
theorem flushed_eq (c : Dev nD) (t : Fin cfg0.N) :
    (dats m 0 c).flushed 3 t
      = ((cfg0.win 3).blk t).view.read (Elt Ideal)
          (dense (V m c (Pipeline.arrRef spec0 0)) (V m c (Pipeline.arrRef spec0 1)) (V m c (Pipeline.arrRef spec0 2))) := by
  show (cfg0.win 3).cut (grid0.coords t) ((dats m 0 c).after 3 t) = _
  rw [after0_3]
  exact region_point c t (V m c (Pipeline.arrRef spec0 0)) (V m c (Pipeline.arrRef spec0 1)) (V m c (Pipeline.arrRef spec0 2))

/-- An index of the output array is in point `t`'s block iff each coordinate is in the block's range. -/
theorem mem_blk (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v13).slice (win0_3.rect t)).set ↔ _
  rw [View.set_slice_whole, Rect.mem_set_unit]
  exact Iff.rfl

/-- The ten row blocks tile the output: row `r` is in the block of point `r / 10000`. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  refine ⟨t, flush0_3 t, ?_⟩
  rw [mem_blk]
  obtain ⟨-, -, -, -, -, -, e0, e1⟩ := idx_facts t
  have ht : t.val = (i 0).val / 10000 := rfl
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 64 ≤ (i 1).val ∧ (i 1).val < win0_3.index t (1 : Fin 2) * 64 + 64
    omega

/-- THE OUTPUT ARRAY AFTER THE REGION: `dense` of the operands as the region finds them, everywhere. -/
theorem final (c : Dev nD) :
    (dats m 0 c).arrAt 3 cfg0.N = dense (V m c (Pipeline.arrRef spec0 0)) (V m c (Pipeline.arrRef spec0 1)) (V m c (Pipeline.arrRef spec0 2)) :=
  (dats m 0 c).arrAt_eq_of_cover 3 (dense (V m c (Pipeline.arrRef spec0 0)) (V m c (Pipeline.arrRef spec0 1)) (V m c (Pipeline.arrRef spec0 2)))
    (fun t _ => flushed_eq m c t) cover

end Cert.KernelIdeal.Region

end
-- ==== Proof.LibGraphLayers.lean ====
/-
  Two layers of a graph network, and the order of the last two linear maps.

  A sparse `[N, N]` matrix `A`, given by its entries (row number, column number, value), acts on the rows of a
  dense matrix: `(A y)(n, d) = ∑ over the entries e of row n, of val e * y (source row of e, d)`. With node
  features `x : [N, J]` and weights `w1 : [J, K]`, `w3 : [K, D]`, the hidden activations are
  `h = max ((A x) w1, 0)`, and the network's output is written in two ways:

    project, then mix :   A (h w3)      — each node's hidden row is first multiplied by `w3`, then the rows are mixed by `A`;
    mix, then project :   (A h) w3      — the hidden rows are mixed first and the result multiplied by `w3`.

  Both are `∑ e, ∑ k, val e * h (src e, k) * w3 (k, d)`: the two finite sums are exchanged and the factor `val e`
  (resp. `w3 (k, d)`) moved across a sum. On the extended reals that needs every term to be a real number, which
  it is when the features, the values and both weights are real.
-/
import proofs.«170506_j19688130085401_2_alg».proof.Proof.LibSpmm

noncomputable section

open scoped BigOperators

namespace Cert.Layers

open Idealize.ShloMosaic Idealize.ShloMosaic.ValueIdx Cert.SparseProd LibFinite

section
variable {N E J K D : Nat} (hN : 0 < N) (row col : IVec ⟨1, ![E]⟩ 32) (val : FVec Ideal ⟨1, ![E]⟩ .f32)

/-- The sparse matrix applied to a dense matrix `y`, read at `(n, d)`. -/
def sparseAt {C : Nat} (y : Fin N → Fin C → EReal) (n : Fin N) (d : Fin C) : EReal :=
  ∑ e ∈ Finset.univ.filter (fun e : Fin E => (row (ix1 e)).toInt = (n.val : Int)),
    val (ix1 e) * y (srcRow hN col e) d

variable (x : Fin N → Fin J → EReal) (w1 : Fin J → Fin K → EReal) (w3 : Fin K → Fin D → EReal)

/-- The hidden activations `max ((A x) w1, 0)` at node `c`, unit `k`. -/
def hiddenAt (c : Fin N) (k : Fin K) : EReal :=
  max (∑ j : Fin J, sparseAt hN row col val x c j * w1 j k) 0

/-- A node's hidden row multiplied by `w3`. -/
def projectedAt (c : Fin N) (d : Fin D) : EReal :=
  ∑ k : Fin K, hiddenAt hN row col val x w1 c k * w3 k d

/-- Project, then mix: `A (h w3)`. -/
def projectThenMix (n : Fin N) (d : Fin D) : EReal :=
  sparseAt hN row col val (projectedAt hN row col val x w1 w3) n d

/-- Mix, then project: `(A h) w3`. -/
def mixThenProject (n : Fin N) (d : Fin D) : EReal :=
  ∑ k : Fin K, sparseAt hN row col val (hiddenAt hN row col val x w1) n k * w3 k d

end

end Cert.Layers

end
-- ==== Proof.KernelResult.lean ====
/-
  The kernel program's result, read at an index.

  The kernel program mixes the node features with the sparse matrix `A` on the host, runs both dense layers row by
  row in the region, and mixes the region's output with `A` on the host again:

      result = A (dense (A x0) x4 x5),     dense z w1 w3 = max (z w1, 0) w3   row by row.

  Each product by `A` read at an index is the sum over the entries of a row, so the result read at `(n, d)` is
  "project, then mix": `∑ e of row n, val e * ∑ k, h (src e, k) * x5 (k, d)` with the hidden activations
  `h = max ((A x0) x4, 0)`.
-/
import proofs.«170506_j19688130085401_2_alg».proof.Proof.KernelHost
import proofs.«170506_j19688130085401_2_alg».proof.Proof.KernelDense
import proofs.«170506_j19688130085401_2_alg».proof.Proof.LibGraphLayers

noncomputable section

open scoped BigOperators

namespace Cert.KernelIdeal.KValue

open Cert.KernelIdeal Idealize.ShloMosaic Idealize.ShloMosaic.ValueIdx Cert.KernelIdeal.HostSide Cert.KernelIdeal.Region
  Cert.SparseProd Cert.Layers

/-- The kernel program's result as a function of its arguments: mix, both dense layers, mix. -/
def result (x0 : FVec Ideal S100000x64 .f32) (x1 x2 : IVec S1600000 32) (x3 : FVec Ideal S1600000 .f32)
    (x4 : FVec Ideal S64x128 .f32) (x5 : FVec Ideal S128x64 .f32) : FVec Ideal S100000x64 .f32 :=
  mix x1 x2 x3 (dense (mix x1 x2 x3 x0) x4 x5)

/-- There is at least one node. -/
theorem nodes_pos : 0 < 100000 := by decide

/-- The host's mixing read at `(n, d)`: the sum over the entries of row `n`. -/
theorem mix_apply (x1 x2 : IVec S1600000 32) (x3 : FVec Ideal S1600000 .f32) (y : FVec Ideal S100000x64 .f32)
    (n : Fin 100000) (d : Fin 64) :
    mix x1 x2 x3 y (ix2 n d)
      = sparseAt (N := 100000) (E := 1600000) nodes_pos x1 (ncol x2) x3 (fun c j => y (ix2 c j)) n d := by
  unfold mix sparseAt
  exact spmm_apply _ _ _ _ _ nodes_pos x1 (ncol x2) x3 y n d

/-- THE KERNEL PROGRAM'S RESULT READ AT `(n, d)`: project, then mix. -/
theorem result_apply (x0 : FVec Ideal S100000x64 .f32) (x1 x2 : IVec S1600000 32) (x3 : FVec Ideal S1600000 .f32)
    (x4 : FVec Ideal S64x128 .f32) (x5 : FVec Ideal S128x64 .f32) (n : Fin 100000) (d : Fin 64) :
    result x0 x1 x2 x3 x4 x5 (ix2 n d)
      = projectThenMix (N := 100000) (E := 1600000) (J := 64) (K := 128) (D := 64) (by decide) x1 (ncol x2) x3
          (fun c j => x0 (ix2 c j)) (fun j k => x4 (ix2 j k)) (fun k d => x5 (ix2 k d)) n d := by
  unfold result
  rw [mix_apply]
  unfold projectThenMix sparseAt
  refine Finset.sum_congr rfl (fun e _ => ?_)
  refine congrArg (fun s => x3 (ix1 e) * s) ?_
  show dense (mix x1 x2 x3 x0) x4 x5 (ix2 (srcRow nodes_pos (ncol x2) e) d) = _
  rw [dense_apply]
  unfold projectedAt hiddenAt
  refine Finset.sum_congr rfl (fun k _ => ?_)
  refine congrArg (fun s => max s 0 * x5 (ix2 k d)) (Finset.sum_congr rfl (fun j _ => ?_))
  rw [mix_apply]

end Cert.KernelIdeal.KValue

end
-- ==== Proof.KernelRun.lean ====
/-
  The kernel program's run, read: its result array as one function of the argument arrays.

  The host mixes the features with the sparse matrix, the region takes every row of the mixed features through
  both dense layers (`dense`), and the host mixes the region's output again:

      result = A (dense (A x) w1 w3).

  Every weakly fair execution terminates with the result buffer holding that array and the arguments unchanged.
-/
import proofs.«170506_j19688130085401_2_alg».proof.Proof.Gen.KernelIdeal.Frame
import proofs.«170506_j19688130085401_2_alg».proof.Proof.KernelHost
import proofs.«170506_j19688130085401_2_alg».proof.Proof.KernelRegion
import proofs.«170506_j19688130085401_2_alg».proof.Proof.KernelResult

noncomputable section

namespace Cert.KernelIdeal.KValue

open Cert.KernelIdeal Cert.KernelIdeal.Gen Idealize.ShloMosaic Idealize.ShloMosaic.TcCoe Idealize.SL.Sem
open Cert.KernelIdeal.HostSide Cert.KernelIdeal.Region

variable (m : (ℓ : Loc nD τ sig) → Buf (Elt Ideal) ℓ) (ρ : Dev nD → PrngReg)

/-- What the host operations after the region leave in the result buffer. -/
theorem tail_eq (c : Dev nD) :
    (Pipeline.afterTail₀ cfgs (dats m) 0 (V0 m) [hostOps1] c main_v26 : S100000x64.Idx → EReal)
      = result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  refine (tail_main_v26 m c _ (final m c)).trans ?_
  rw [V_opnd0 m c, V_opnd1 m c, V_opnd2 m c]
  rfl

/-- THE RUN, READ: the result buffer ends at `result` of the arguments, the arguments unchanged. -/
theorem run : θ_run defs (onTc (τ := τ) (main (F := Ideal))) ⟨m, fun _ => 0, ρ⟩ fun r => ∀ c : Dev nD,
      r.2.mem ((c.tc : Thread nD τ).loc main_v26)
        = result (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v26 (Pipeline.mem_restRefs_of main_v26 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c))),
      ((h c).1 2).trans (((dats m 0 c).arrAt_in 2 rfl _).trans ((A_eq m c 2).trans (V_main_arg5 m c)))⟩)
    (run_main m ρ)

end Cert.KernelIdeal.KValue

end
-- ==== Proof.RefValue.lean ====
/-
  The reference program's result, read at an index.

  The reference computes, with the sparse matrix `A` given by its entries (row numbers `x1`, column numbers `x2`
  wrapped once when negative, values `x3`), the features `x0` and the weights `x4`, `x5`:

      s = A x0,   h = max (s x4, 0),   t = A h,   result = t x5.

  Each product by `A` is a gather of rows, a scaling and a scatter-add of rows, which is the sparse product read
  entry by entry as a sum over the entries of a row; each dense product is a sum over the contracted index; the
  maximum is taken with the constant zero. Read at `(n, d)` the result is therefore "mix, then project":
  `∑ k, (∑ e of row n, val e * h (src e, k)) * x5 (k, d)`.
-/
import proofs.«170506_j19688130085401_2_alg».proof.Proof.Gen.ReferenceIdeal.Read
import proofs.«170506_j19688130085401_2_alg».proof.Proof.LibGraphLayers

noncomputable section

open scoped BigOperators

namespace Cert.ReferenceIdeal.RefValue

open Cert.ReferenceIdeal Cert.ReferenceIdeal.Gen Cert.ReferenceIdeal.Read Idealize.ShloMosaic Idealize.ShloMosaic.ValueIdx
  Cert.SparseProd Cert.Layers Cert.GNN.RowIndex

/-- There is at least one node. -/
theorem nodes_pos : 0 < 100000 := by decide

/-! ### The two products by the sparse matrix are the sparse product -/

/-- The first gather, scaling and scatter-add is the sparse product of the features. -/
theorem v12_eq (x0 : FVec Ideal S100000x64 .f32) (x1 x2 : IVec S1600000 32) (x3 : FVec Ideal S1600000 .f32) :
    val_main_v12 (F := Ideal) x0 x1 x2 x3
      = spmm (N := 100000) (E := 1600000) (C := 64) bcast_S1600000_S1600000x1_0 bcast_S1600000x1_S1600000x64_0_1
          bcast_S_S100000x64 gather_S100000x64_S1600000x1_S1600000x64_1_0_n_n_0_1_164_wf
          scatter_S100000x64_S1600000x1_S1600000x64_1_0_0_1_wf x1 (val_main_v5 (F := Ideal) x2) x3 x0 := rfl

/-- The column numbers are wrapped the same way both times. -/
theorem v20_eq (x2 : IVec S1600000 32) : val_main_v20 (F := Ideal) x2 = val_main_v5 (F := Ideal) x2 := rfl

/-- The second gather, scaling and scatter-add is the sparse product of the hidden activations. -/
theorem v27_eq (x0 : FVec Ideal S100000x64 .f32) (x1 x2 : IVec S1600000 32) (x3 : FVec Ideal S1600000 .f32)
    (x4 : FVec Ideal S64x128 .f32) :
    val_main_v27 (F := Ideal) x0 x1 x2 x3 x4
      = spmm (N := 100000) (E := 1600000) (C := 128) bcast_S1600000_S1600000x1_0 bcast_S1600000x1_S1600000x128_0_1
          bcast_S_S100000x128 gather_S100000x128_S1600000x1_S1600000x128_1_0_n_n_0_1_1128_wf
          scatter_S100000x128_S1600000x1_S1600000x128_1_0_0_1_wf x1 (val_main_v20 (F := Ideal) x2) x3
          (val_main_v14 (F := Ideal) x0 x1 x2 x3 x4) := rfl

/-! ### The index functions of the two dense products, at coordinates -/

theorem lidx13 (c : Fin 100000) (k : Fin 128) (j : Fin 64) : lidx_main_v13 (ix2 c k) j = ix2 c j :=
  funext fun a => Fin.ext (by match a with | ⟨0, _⟩ => rfl | ⟨1, _⟩ => rfl)

theorem ridx13 (c : Fin 100000) (k : Fin 128) (j : Fin 64) : ridx_main_v13 (ix2 c k) j = ix2 j k :=
  funext fun a => Fin.ext (by match a with | ⟨0, _⟩ => rfl | ⟨1, _⟩ => rfl)

theorem lidx28 (n : Fin 100000) (d : Fin 64) (k : Fin 128) : lidx_main_v28 (ix2 n d) k = ix2 n k :=
  funext fun a => Fin.ext (by match a with | ⟨0, _⟩ => rfl | ⟨1, _⟩ => rfl)

theorem ridx28 (n : Fin 100000) (d : Fin 64) (k : Fin 128) : ridx_main_v28 (ix2 n d) k = ix2 k d :=
  funext fun a => Fin.ext (by match a with | ⟨0, _⟩ => rfl | ⟨1, _⟩ => rfl)

/-! ### The hidden activations -/

/-- The maximum stage read at `(c, k)` is the hidden activation `max ((A x0) x4, 0)` there. -/
theorem hidden_apply (x0 : FVec Ideal S100000x64 .f32) (x1 x2 : IVec S1600000 32) (x3 : FVec Ideal S1600000 .f32)
    (x4 : FVec Ideal S64x128 .f32) (c : Fin 100000) (k : Fin 128) :
    val_main_v14 (F := Ideal) x0 x1 x2 x3 x4 (ix2 c k)
      = hiddenAt (N := 100000) (E := 1600000) (J := 64) (K := 128) nodes_pos x1 (val_main_v5 (F := Ideal) x2) x3
          (fun c j => x0 (ix2 c j)) (fun j k => x4 (ix2 j k)) c k := by
  rw [val_main_v14_apply, val_main_v13_apply, val_main_call0_v0_apply, val_main_call0_cst_apply,
    Ideal.maximumf_def, Ideal.ofBits_def, Ideal.ofBits_zero_f32]
  unfold hiddenAt sparseAt
  refine congrArg (fun s => max s 0) (Finset.sum_congr rfl (fun j _ => ?_))
  rw [lidx13, ridx13, v12_eq, spmm_apply _ _ _ _ _ nodes_pos]

/-! ### The result -/

/-- THE REFERENCE'S RESULT READ AT `(n, d)`: mix, then project. -/
theorem result_apply (x0 : FVec Ideal S100000x64 .f32) (x1 x2 : IVec S1600000 32) (x3 : FVec Ideal S1600000 .f32)
    (x4 : FVec Ideal S64x128 .f32) (x5 : FVec Ideal S128x64 .f32) (n : Fin 100000) (d : Fin 64) :
    val_main_v28 (F := Ideal) x0 x1 x2 x3 x4 x5 (ix2 n d)
      = mixThenProject (N := 100000) (E := 1600000) (J := 64) (K := 128) (D := 64) (by decide) x1 (val_main_v5 (F := Ideal) x2) x3
          (fun c j => x0 (ix2 c j)) (fun j k => x4 (ix2 j k)) (fun k d => x5 (ix2 k d)) n d := by
  rw [val_main_v28_apply]
  unfold mixThenProject sparseAt
  refine Finset.sum_congr rfl (fun k _ => ?_)
  rw [lidx28, ridx28, v27_eq, spmm_apply _ _ _ _ _ nodes_pos, v20_eq]
  refine congrArg (fun s => s * x5 (ix2 k d)) (Finset.sum_congr rfl (fun e _ => ?_))
  rw [hidden_apply]

end Cert.ReferenceIdeal.RefValue

end
-- ==== Proof.LibGraphLayersLaw.lean ====
/-
  The order of the last two linear maps of the two-layer network does not matter on real data.

  With the sparse matrix `A` (entries `e` with a row number, a source row `src e` and a value `val e`), the hidden
  activations `h = max ((A x) w1, 0)` and the weights `w3`,

      A (h w3) (n, d)   = ∑ e of row n, val e * ∑ k, h (src e, k) * w3 (k, d),
      ((A h) w3) (n, d) = ∑ k, (∑ e of row n, val e * h (src e, k)) * w3 (k, d).

  When the values, the features and the weights are real numbers, so is every `h (c, k)` (a maximum of `0` and a
  finite sum of products of reals). Both expressions are then the images of real numbers, and in the reals both are
  `∑ k, ∑ e, val e * h (src e, k) * w3 (k, d)`: a factor is moved into a finite sum and the two finite sums are
  exchanged. (On the extended reals themselves the distributive law fails at the infinities, which is why the
  computation is carried out in the reals.)
-/
import proofs.«170506_j19688130085401_2_alg».proof.Proof.LibGraphLayers

noncomputable section

open scoped BigOperators

namespace Cert.Layers

open Idealize.ShloMosaic Idealize.ShloMosaic.ValueIdx Cert.SparseProd LibFinite

/-- The sparse matrix with real values applied to a real matrix is real. -/
theorem isReal_sparseAt {N E C : Nat} (hN : 0 < N) (row col : IVec ⟨1, ![E]⟩ 32)
    (val : FVec Ideal ⟨1, ![E]⟩ .f32) (y : Fin N → Fin C → EReal)
    (hval : ∀ i, IsReal (val i)) (hy : ∀ c d, IsReal (y c d)) (n : Fin N) (d : Fin C) :
    IsReal (sparseAt hN row col val y n d) :=
  isReal_sum _ _ (fun e _ => (hval (ix1 e)).mul (hy (srcRow hN col e) d))

/-- The hidden activations of real data are real: a maximum of `0` and a finite sum of products of reals. -/
theorem isReal_hiddenAt {N E J K : Nat} (hN : 0 < N) (row col : IVec ⟨1, ![E]⟩ 32)
    (val : FVec Ideal ⟨1, ![E]⟩ .f32) (x : Fin N → Fin J → EReal) (w1 : Fin J → Fin K → EReal)
    (hval : ∀ i, IsReal (val i)) (hx : ∀ c j, IsReal (x c j)) (hw1 : ∀ j k, IsReal (w1 j k))
    (c : Fin N) (k : Fin K) : IsReal (hiddenAt hN row col val x w1 c k) :=
  (isReal_sum _ _ (fun j _ => (isReal_sparseAt hN row col val x hval hx c j).mul (hw1 j k))).max isReal_zero

/-- PROJECT-THEN-MIX IS MIX-THEN-PROJECT on real data: `A (h w3) = (A h) w3`, entry by entry. -/
theorem projectThenMix_eq_mixThenProject {N E J K D : Nat} (hN : 0 < N) (row col : IVec ⟨1, ![E]⟩ 32)
    (val : FVec Ideal ⟨1, ![E]⟩ .f32) (x : Fin N → Fin J → EReal) (w1 : Fin J → Fin K → EReal) (w3 : Fin K → Fin D → EReal)
    (hval : ∀ i, IsReal (val i)) (hx : ∀ c j, IsReal (x c j)) (hw1 : ∀ j k, IsReal (w1 j k)) (hw3 : ∀ k d, IsReal (w3 k d))
    (n : Fin N) (d : Fin D) :
    projectThenMix hN row col val x w1 w3 n d = mixThenProject hN row col val x w1 w3 n d := by
  -- real witnesses of the values, of the hidden activations and of column `d` of `w3`
  choose v hv using fun e : Fin E => (hval (ix1 e) : ∃ r : ℝ, val (ix1 e) = (r : EReal))
  choose h hh using fun (c : Fin N) (k : Fin K) =>
    (isReal_hiddenAt hN row col val x w1 hval hx hw1 c k : ∃ r : ℝ, hiddenAt hN row col val x w1 c k = (r : EReal))
  choose w hw using fun k : Fin K => (hw3 k d : ∃ r : ℝ, w3 k d = (r : EReal))
  show (∑ e ∈ Finset.univ.filter (fun e : Fin E => (row (ix1 e)).toInt = (n.val : Int)),
          val (ix1 e) * ∑ k : Fin K, hiddenAt hN row col val x w1 (srcRow hN col e) k * w3 k d)
      = ∑ k : Fin K, (∑ e ∈ Finset.univ.filter (fun e : Fin E => (row (ix1 e)).toInt = (n.val : Int)),
          val (ix1 e) * hiddenAt hN row col val x w1 (srcRow hN col e) k) * w3 k d
  -- both sides are images of real numbers
  simp only [hv, hh, hw, ← EReal.coe_mul, ← coe_finset_sum]
  refine congrArg (fun r : ℝ => (r : EReal)) ?_
  -- in the reals: move the factors into the sums and exchange the two sums
  simp only [Finset.mul_sum, Finset.sum_mul]
  rw [Finset.sum_comm]
  exact Finset.sum_congr rfl (fun k _ => Finset.sum_congr rfl (fun e _ => (mul_assoc _ _ _).symm))

end Cert.Layers

end
-- ==== Proof.Bridge.lean ====
/-
  The two programs compute one array on real data.

  Read at `(n, d)`, the reference's result is "mix, then project" and the kernel program's result is "project, then
  mix", over the same sparse matrix (both programs normalise the column numbers by the same operations), the same
  features and the same weights. When the features, the values and both weights are real numbers the two orders
  agree, entry by entry.
-/
import proofs.«170506_j19688130085401_2_alg».proof.Proof.RefValue
import proofs.«170506_j19688130085401_2_alg».proof.Proof.LibGraphLayersLaw
import proofs.«170506_j19688130085401_2_alg».proof.Proof.KernelResult

noncomputable section

namespace Cert.Bridge

open Idealize.ShloMosaic Idealize.ShloMosaic.ValueIdx

/-- Both programs normalise the column numbers by the same operations. -/
theorem ncol_eq (x2 : IVec Cert.KernelIdeal.S1600000 32) :
    Cert.KernelIdeal.HostSide.ncol x2 = Cert.ReferenceIdeal.Read.val_main_v5 (F := Ideal) x2 := rfl

/-- THE TWO PROGRAMS' RESULTS ARE ONE ARRAY ON REAL DATA. -/
theorem results_agree (x0 : FVec Ideal Cert.KernelIdeal.S100000x64 .f32) (x1 x2 : IVec Cert.KernelIdeal.S1600000 32)
    (x3 : FVec Ideal Cert.KernelIdeal.S1600000 .f32) (x4 : FVec Ideal Cert.KernelIdeal.S64x128 .f32)
    (x5 : FVec Ideal Cert.KernelIdeal.S128x64 .f32)
    (h0 : LibFinite.AllReal x0) (h3 : LibFinite.AllReal x3) (h4 : LibFinite.AllReal x4) (h5 : LibFinite.AllReal x5) :
    Cert.ReferenceIdeal.Read.val_main_v28 (F := Ideal) x0 x1 x2 x3 x4 x5 = Cert.KernelIdeal.KValue.result x0 x1 x2 x3 x4 x5 := by
  funext i
  obtain ⟨n, d, rfl⟩ : ∃ (n : Fin 100000) (d : Fin 64), i = ix2 n d := ⟨i 0, i 1, eq_ix2 i⟩
  rw [Cert.ReferenceIdeal.RefValue.result_apply, Cert.KernelIdeal.KValue.result_apply, ncol_eq]
  exact (Cert.Layers.projectThenMix_eq_mixThenProject _ x1 _ x3 _ _ _ (fun i => h3 i) (fun c j => h0 _)
    (fun j k => h4 _) (fun k d => h5 _) n d).symm

end Cert.Bridge

end
-- ==== Proof.lean ====
/-
  A two-layer graph network: the kernel program applies the last linear map before the second mixing by the sparse
  matrix, the reference after it.

  With `A` the sparse `[N, N]` matrix given by its entries (row number, column number, value), `x` the node
  features and `w1`, `w3` the weights, both programs first compute the hidden activations `h = max ((A x) w1, 0)`.
  The kernel program then returns `A (h w3)` — its region multiplies each block of ten thousand rows of `A x` by
  `w1`, takes the maximum with zero and multiplies by `w3`, and the host mixes the region's output —, the reference
  returns `(A h) w3`. On real data the two are equal entry by entry: both are the double sum, over the entries `e` of
  row `n` and the hidden units `k`, of `val e * h (src e, k) * w3 (k, d)`. The precondition makes the data real.

  The three frames: the two kernel programs' are the generated frame certificates; the reference's is its run with
  the result dropped. Nothing was rewritten between the kernel program and its idealization.
-/
import proofs.«170506_j19688130085401_2_alg».proof.Defs
import proofs.«170506_j19688130085401_2_alg».proof.Proof.Gen.Kernel
import proofs.«170506_j19688130085401_2_alg».proof.Proof.Gen.Kernel.Skeleton
import proofs.«170506_j19688130085401_2_alg».proof.Proof.Gen.Kernel.Launch
import proofs.«170506_j19688130085401_2_alg».proof.Proof.Gen.Kernel.Points
import proofs.«170506_j19688130085401_2_alg».proof.Proof.Gen.Kernel.Frame
import proofs.«170506_j19688130085401_2_alg».proof.Proof.Gen.KernelIdeal
import proofs.«170506_j19688130085401_2_alg».proof.Proof.Gen.KernelIdeal.Skeleton
import proofs.«170506_j19688130085401_2_alg».proof.Proof.Gen.KernelIdeal.Launch
import proofs.«170506_j19688130085401_2_alg».proof.Proof.Gen.KernelIdeal.Points
import proofs.«170506_j19688130085401_2_alg».proof.Proof.Gen.KernelIdeal.Frame
import proofs.«170506_j19688130085401_2_alg».proof.Proof.Gen.ReferenceIdeal
import proofs.«170506_j19688130085401_2_alg».proof.Proof.Gen.ReferenceIdeal.Run
import proofs.«170506_j19688130085401_2_alg».proof.Proof.Gen.ReferenceIdeal.Read
import proofs.«170506_j19688130085401_2_alg».proof.Proof.Gen.Pre_finite_inputs
import proofs.«170506_j19688130085401_2_alg».proof.Proof.Finite
import proofs.«170506_j19688130085401_2_alg».proof.Proof.KernelRun
import proofs.«170506_j19688130085401_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, the kernel program ends at `A (h w3)` and the reference at
    `(A h) w3` of the same real data: one array. -/
theorem algebraic : Cert.algebraic_KernelIdeal_ReferenceIdeal := by
  intro m ρ m' ρ' hpre hagree
  refine ⟨fun c => Cert.KernelIdeal.KValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  obtain ⟨h0, h3, h4, h5⟩ := Cert.Finite.allReal_of_pre _ _ _ _ _ _ (hpre c)
  rw [a0, a1, a2, a3, a4, a5]
  exact (Cert.ReferenceIdeal.Read.val_main_v28_eq _ _ _ _ _ _).trans (Cert.Bridge.results_agree _ _ _ _ _ _ h0 h3 h4 h5)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
